-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64 .f32) (main_arg6 : FVec F S64x16 .f32) (main_arg7 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x768 .f32) (main_arg1 : IVec S2x800000 32) (main_arg2 : FVec F S768x128 .f32) (main_arg3 : FVec F S128 .f32) (main_arg4 : FVec F S128x64 .f32) (main_arg5 : FVec F S64 .f32) (main_arg6 : FVec F S64x16 .f32) (main_arg7 : FVec F S16 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x768 : Shape := ⟨2, ![2000, 768]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S1x16 : Shape := ⟨2, ![1, 16]⟩
abbrev S50000x16 : Shape := ⟨2, ![50000, 16]⟩
abbrev S2000x16 : Shape := ⟨2, ![2000, 16]⟩

abbrev nBuf : Space → Nat
  | .hbm => 89
  | .vmem => 18
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S1x16, .f32⟩
  | .hbm, ⟨88, _⟩ => ⟨S50000x16, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S2000x16, .f32⟩
  | .local _ .vmem, ⟨17, _⟩ => ⟨S2000x16, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S16_S1x16 : S16.ShapeCasts S1x16
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x768_S768x128_S2000x128_1_0_0_1_n_n_wf : DotDims.WF S2000x768 S768x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x16.size a ≤ S50000x16.size a
  hwx2_4 : ∀ i : grid2.Coords, EltTy.bits .f32 = 32 ∨ (Rect.block (s := S50000x16) S2000x16.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S2000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x128, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S850000, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x64, .f32⟩
  | .hbm, ⟨103, _⟩ => ⟨S850000x1, .f32⟩
  | .hbm, ⟨104, _⟩ => ⟨S850000x64, .f32⟩
  | .hbm, ⟨105, _⟩ => ⟨S850000x64, .f32⟩
  | .hbm, ⟨106, _⟩ => ⟨S_, .f32⟩
  | .hbm, ⟨107, _⟩ => ⟨S50000x64, .f32⟩
  | .hbm, ⟨108, _⟩ => ⟨S850000x1, .i32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | .hbm, ⟨113, _⟩ => ⟨S50000x16, .f32⟩
  | .hbm, ⟨114, _⟩ => ⟨S1x16, .f32⟩
  | .hbm, ⟨115, _⟩ => ⟨S50000x16, .f32⟩
  | .hbm, ⟨116, _⟩ => ⟨S50000x16, .f32⟩
  | .hbm, ⟨117, _⟩ => ⟨S50000x16, .f32⟩
  | .hbm, ⟨118, _⟩ => ⟨S50000x16, .f32⟩
  | .hbm, ⟨119, _⟩ => ⟨S_, .f32⟩
  | .hbm, ⟨120, _⟩ => ⟨S50000x16, .f32⟩
  | .hbm, ⟨121, _⟩ => ⟨S50000x16, .f32⟩
  | .hbm, ⟨122, _⟩ => ⟨S_, .f32⟩
  | .hbm, ⟨123, _⟩ => ⟨S50000x16, .f32⟩
  | .hbm, ⟨124, _⟩ => ⟨S50000x16, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  scatter_S50000_S850000x1_S850000_n_0_0_1_wf : ScatterDims.WF S50000 S850000x1 S850000 [] [0] [0] 1
  dot_S50000x768_S768x128_S50000x128_1_0_0_1_n_n_wf : DotDims.WF S50000x768 S768x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.KRun.lean ====
/-
  The idealized kernel program's run with its result array named.

  @main is eight segments: three stretches of host operations, then each of the three pallas regions followed (for the
  first two) by a stretch of host operations. The buffer contents at the segment boundaries are a fold through
  @main from the launch memory; at the last boundary every unscoped buffer holds the fold's last value. Every weakly
  fair execution terminates without a fault, the argument arrays end as launched, and the result array ends at the
  last boundary's contents of its buffer — the third region's output window after all its write-backs.
-/
import proofs.«176238_j1984274891245_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the segments, the last thread state read against the final state: the result array at the last
    boundary's contents, each argument array walked back through the fold to the launch memory. -/
theorem run_named : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunNamed

end
-- ==== Proof.Spec.lean ====
/-
  The three dense stages of the two-layer graph convolution, as functions of whole arrays over the extended reals.

  Each stage is a matrix product of a row-wise transformed activation with a weight matrix:
    * `lin x w`            : entry (r, c) is the sum over k of x(r,k) · w(k,c);
    * `reluLin a b w`      : entry (r, c) is the sum over k of max(a(r,k) + b(k), 0) · w(k,c);
    * `sigLin a b w bl`    : entry (r, c) is the logistic function of (the sum over k of (a(r,k) + b(k)) · w(k,c)) + bl(c).
  The logistic function is written 1 / (1 + exp(−z)) with the float word of 1.0 for both ones; that word denotes the
  real number one, so this is the operation `Ideal.logistic`.
-/
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx

variable {M K N : Nat}

/-- A matrix of extended reals with the given extents. -/
abbrev Mat (a b : Nat) : Type := (⟨2, ![a, b]⟩ : Shape).Idx → EReal
/-- A vector of extended reals with the given extent. -/
abbrev Vc (a : Nat) : Type := (⟨1, ![a]⟩ : Shape).Idx → EReal

/-- The float word of +0.0 at the ideal instance. -/
def zeroWord : EReal := Ideal.ofBits .f32 0x00000000#32
/-- The float word of 1.0 at the ideal instance. -/
def oneWord : EReal := Ideal.ofBits .f32 0x3F800000#32

/-- The word of 1.0 denotes the real number one. -/
theorem oneWord_eq : oneWord = 1 := by
  unfold oneWord
  simp [Ideal.ofBits, Ideal.ieee, -EReal.coe_mul]; norm_num

/-- A one-row matrix read as a vector. -/
def rowVec (b : Mat 1 K) : Vc K := fun k => b (ix2 (n1 := K) (0 : Fin 1) (k 0))

theorem rowVec_apply (b : Mat 1 K) (k : Fin K) : rowVec b (ix1 k) = b (ix2 (0 : Fin 1) k) := rfl

/-- A vector cast to one row and read back as a vector is the vector. -/
theorem rowVec_shapeCast (v : Vc K) (h : (⟨1, ![K]⟩ : Shape).ShapeCasts ⟨2, ![1, K]⟩) :
    rowVec (shapeCast ⟨2, ![1, K]⟩ v h) = v := by
  funext k
  obtain ⟨k0, rfl⟩ : ∃ k0 : Fin K, k = ix1 k0 := ⟨k 0, eq_ix1 k⟩
  show shapeCast ⟨2, ![1, K]⟩ v h (ix2 (0 : Fin 1) k0) = v (ix1 k0)
  refine (shapeCast_addUnit_apply (n := 1) ![K] v h _).trans ?_
  refine congrArg v (funext fun a => ?_)
  match a with
  | ⟨0, _⟩ => rfl

/-- The plain matrix product. -/
def lin (x : Mat M K) (w : Mat K N) : Mat M N :=
  fun i => ∑ k : Fin K, x (ix2 (n0 := M) (i 0) k) * w (ix2 (n1 := N) k (i 1))

/-- Bias, rectification, then the matrix product. -/
def reluLin (a : Mat M K) (b : Vc K) (w : Mat K N) : Mat M N :=
  fun i => ∑ k : Fin K, max (a (ix2 (n0 := M) (i 0) k) + b (ix1 k)) zeroWord * w (ix2 (n1 := N) k (i 1))

/-- The logistic function, spelt with the word of 1.0. -/
def sigm (z : EReal) : EReal := Ideal.div oneWord (oneWord + Ideal.exp (-z))

/-- It is the ideal instance's logistic operation. -/
theorem logistic_eq_sigm (z : EReal) : Ideal.logistic z = sigm z := by
  unfold sigm; rw [oneWord_eq]; rfl

/-- Bias, the matrix product, the output bias, then the logistic function. -/
def sigLin (a : Mat M K) (b : Vc K) (w : Mat K N) (bl : Vc N) : Mat M N :=
  fun i => sigm ((∑ k : Fin K, (a (ix2 (n0 := M) (i 0) k) + b (ix1 k)) * w (ix2 (n1 := N) k (i 1))) + bl (ix1 (n := N) (i 1)))

theorem lin_apply (x : Mat M K) (w : Mat K N) (p : Fin M) (q : Fin N) :
    lin x w (ix2 p q) = ∑ k : Fin K, x (ix2 p k) * w (ix2 k q) := rfl

theorem reluLin_apply (a : Mat M K) (b : Vc K) (w : Mat K N) (p : Fin M) (q : Fin N) :
    reluLin a b w (ix2 p q) = ∑ k : Fin K, max (a (ix2 p k) + b (ix1 k)) zeroWord * w (ix2 k q) := rfl

theorem sigLin_apply (a : Mat M K) (b : Vc K) (w : Mat K N) (bl : Vc N) (p : Fin M) (q : Fin N) :
    sigLin a b w bl (ix2 p q) = sigm ((∑ k : Fin K, (a (ix2 p k) + b (ix1 k)) * w (ix2 k q)) + bl (ix1 q)) := rfl

end Cert.Gcn

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Stage0.lean ====
/-
  The first dense stage, read off its pipeline: the array the first region leaves.

  The region tiles the 50000 rows of the activation into 25 blocks of 2000 rows; at grid point t the body loads block t of
  the activation and the whole weight matrix and stores their matrix product as block t of the output. Entry (p, q) of
  that block is the sum over k of activation(2000·t + p, k) · weight(k, q), which is entry (2000·t + p, q) of the product
  of the whole arrays. The 25 blocks tile the output (row r lies in block r / 2000), so the output array ends at the
  whole product, whatever contents the region was entered with.
-/
import proofs.«176238_j1984274891245_1_alg».proof.Proof.Gen.KernelIdeal.Frame
import proofs.«176238_j1984274891245_1_alg».proof.Proof.Spec
import proofs.«176238_j1984274891245_1_alg».proof.Proof.LibMatmulNN
import Idealize.ShloMosaic.Lib.Pipeline.Value

set_option maxRecDepth 16384

noncomputable section

open scoped BigOperators

namespace Cert.KernelIdeal.Stage0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at an entry: a row of the activation block against a column of the weights (a change of
    float format is the identity at the ideal instance). -/
theorem pay_apply (x0 : Vec Ideal S2000x768 .f32) (x1 : Vec Ideal S768x128 .f32) (p : Fin 2000) (q : Fin 128) :
    k0_pay1 x0 x1 (ix2 p q) = ∑ k : Fin 768, x0 (ix2 p k) * x1 (ix2 k q) := by
  unfold k0_pay1
  exact LibMatmulNN.matmul_zero_apply' dot_S2000x768_S768x128_S2000x128_1_0_0_1_n_n rfl rfl rfl rfl rfl rfl none _ _ p q

/-- The index maps over the grid: the activation's and the output's block row is the grid point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed_eq (c : Dev nD) (t : Fin cfg0.N) :
    (dat0 V c).flushed 2 t = ((cfg0.win 2).blk t).view.read (Elt Ideal)
      (lin (M := 50000) (K := 768) (N := 128) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x768) offsets_zero, View.ld_unit_zero (S := S768x128) offsets_zero]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = lin (M := 50000) (K := 768) (N := 128) (V c main_arg0) (V c main_arg2) (((cfg0.win 2).blk t).view.emb (ix2 p q))
  refine (pay_apply _ _ p q).trans ?_
  refine Finset.sum_congr rfl fun k _ => ?_
  have h0 : ((cfg0.win 0).blk t).view.emb (ix2 p k)
      = ix2 (n0 := 50000) (n1 := 768) ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 768 + 1 * k.val = k.val; omega
  have h1 : ((cfg0.win 1).blk t).view.emb (ix2 k q)
      = ix2 (n0 := 768) (n1 := 128) k ((((cfg0.win 2).blk t).view.emb (ix2 p q)) 1) := by
    funext a; apply Fin.ext
    match a with
    | ⟨0, _⟩ => show win0_1.index t (0 : Fin 2) * 768 + 1 * k.val = k.val; omega
    | ⟨1, _⟩ => show win0_1.index t (1 : Fin 2) * 128 + 1 * q.val = win0_2.index t (1 : Fin 2) * 128 + 1 * q.val; omega
  have hA : iblk0 V c 0 t (ix2 p k)
      = V c main_arg0 (ix2 (n0 := 50000) (n1 := 768) ((((cfg0.win 2).blk t).view.emb (ix2 p q)) 0) k) :=
    congrArg (V c main_arg0) h0
  have hB : iblk0 V c 1 t (ix2 k q)
      = V c main_arg2 (ix2 (n0 := 768) (n1 := 128) k ((((cfg0.win 2).blk t).view.emb (ix2 p q)) 1)) :=
    congrArg (V c main_arg2) h1
  exact congrArg₂ (fun a b : EReal => a * b) hA hB

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every block row is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- Row r of the output lies in the block of point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the product of the two arrays the region was entered with. -/
theorem final (c : Dev nD) :
    (dat0 V c).arrAt 2 cfg0.N = lin (M := 50000) (K := 768) (N := 128) (V c main_arg0) (V c main_arg2) :=
  (dat0 V c).arrAt_eq_of_cover 2 _ (fun t _ => flushed_eq V c t) cover

end Cert.KernelIdeal.Stage0

end
-- ==== Proof.Stage1.lean ====
/-
  The second dense stage, read off its pipeline: the array the second region leaves.

  The region tiles the 50000 rows of the aggregated activation into 25 blocks of 2000 rows; at grid point t the body loads
  block t, the one-row bias and the whole weight matrix, adds the bias to every row, rectifies, and stores the matrix
  product with the weights as block t of the output. Entry (p, q) of that block is the sum over k of
  max(a(2000·t + p, k) + b(0, k), 0) · w(k, q): entry (2000·t + p, q) of the stage applied to the whole arrays. The
  blocks tile the output, so the output array ends at the stage of the arrays the region was entered with.
-/
import proofs.«176238_j1984274891245_1_alg».proof.Proof.Gen.KernelIdeal.Frame
import proofs.«176238_j1984274891245_1_alg».proof.Proof.Spec
import proofs.«176238_j1984274891245_1_alg».proof.Proof.LibMatmulNN
import Idealize.ShloMosaic.Lib.Pipeline.Value
import Idealize.ShloMosaic.Lib.ValueLayout

set_option maxRecDepth 16384

noncomputable section

open scoped BigOperators

namespace Cert.KernelIdeal.Stage1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at an entry (a same-shape cast and a change of float format are the identity). -/
theorem pay_apply (x0 : Vec Ideal S2000x128 .f32) (x1 : Vec Ideal S1x128 .f32) (x2 : Vec Ideal S128x64 .f32)
    (p : Fin 2000) (q : Fin 64) :
    k1_pay1 x0 x1 x2 (ix2 p q) = ∑ k : Fin 128, max (x0 (ix2 p k) + x1 (ix2 (0 : Fin 1) k)) zeroWord * x2 (ix2 k q) := by
  unfold k1_pay1
  refine (LibMatmulNN.matmul_zero_apply' dot_S2000x128_S128x64_S2000x64_1_0_0_1_n_n rfl rfl rfl rfl rfl rfl none _ _ p q).trans ?_
  refine Finset.sum_congr rfl fun k _ => ?_
  refine congrArg (· * x2 (ix2 k q)) ?_
  refine congrArg (max · zeroWord) ?_
  show shapeCast S2000x128 x0 _ (ix2 p k) + broadcastTo S2000x128 (shapeCast S1x128 x1 _) _ (ix2 p k) = _
  rw [shapeCast_self, shapeCast_self, broadcastTo_1b_ab_apply]

/-- The index maps over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the stage of the arrays the region finds. -/
theorem flushed_eq (c : Dev nD) (t : Fin cfg1.N) :
    (dat1 V c).flushed 3 t = ((cfg1.win 3).blk t).view.read (Elt Ideal)
      (reluLin (M := 50000) (K := 128) (N := 64) (V c main_v45) (rowVec (V c main_v46)) (V c main_arg4)) := by
  show (cfg1.win 3).cut (grid1.coords t) ((dat1 V c).after 3 t) = _
  rw [after1_3]
  unfold out1_3
  rw [View.canon_unit_zero offsets_zero]
  simp only [View.ld_unit_zero (S := S2000x128) offsets_zero, View.ld_unit_zero (S := S1x128) offsets_zero, View.ld_unit_zero (S := S128x64) offsets_zero]
  obtain ⟨e0, e1, e2, e3, e4, e5, e6, e7⟩ := idx_facts t
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (ix2 p q)
    = reluLin (M := 50000) (K := 128) (N := 64) (V c main_v45) (rowVec (V c main_v46)) (V c main_arg4) (((cfg1.win 3).blk t).view.emb (ix2 p q))
  refine (pay_apply _ _ _ p q).trans ?_
  refine Finset.sum_congr rfl fun k _ => ?_
  have h0 : ((cfg1.win 0).blk t).view.emb (ix2 p k)
      = ix2 (n0 := 50000) (n1 := 128) ((((cfg1.win 3).blk t).view.emb (ix2 p q)) 0) k := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have hb : ((cfg1.win 1).blk t).view.emb (ix2 (0 : Fin 1) k) = ix2 (n0 := 1) (n1 := 128) (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q)
      = ix2 (n0 := 128) (n1 := 64) k ((((cfg1.win 3).blk t).view.emb (ix2 p q)) 1) := by
    funext a; apply Fin.ext
    match a with
    | ⟨0, _⟩ => show win1_2.index t (0 : Fin 2) * 128 + 1 * k.val = k.val; omega
    | ⟨1, _⟩ => show win1_2.index t (1 : Fin 2) * 64 + 1 * q.val = win1_3.index t (1 : Fin 2) * 64 + 1 * q.val; omega
  have hA : iblk1 V c 0 t (ix2 p k)
      = V c main_v45 (ix2 (n0 := 50000) (n1 := 128) ((((cfg1.win 3).blk t).view.emb (ix2 p q)) 0) k) :=
    congrArg (V c main_v45) h0
  have hB : iblk1 V c 1 t (ix2 (0 : Fin 1) k) = V c main_v46 (ix2 (n0 := 1) (n1 := 128) (0 : Fin 1) k) :=
    congrArg (V c main_v46) hb
  have hC : iblk1 V c 2 t (ix2 k q)
      = V c main_arg4 (ix2 (n0 := 128) (n1 := 64) k ((((cfg1.win 3).blk t).view.emb (ix2 p q)) 1)) :=
    congrArg (V c main_arg4) h2
  exact congrArg₂ (fun a b : EReal => a * b)
    (congrArg (fun z : EReal => max z zeroWord) (congrArg₂ (fun a b : EReal => a + b) hA hB)) hC

/-- An index of the output array is in point t's block iff each coordinate is in the block's range on its axis. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v47).slice (win1_3.rect t)).set ↔ _
  rw [View.set_slice_whole, Rect.mem_set_unit]
  exact Iff.rfl

/-- Every block row is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

/-- Row r of the output lies in the block of point r / 2000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The output array after the region: the stage of the arrays the region was entered with. -/
theorem final (c : Dev nD) :
    (dat1 V c).arrAt 3 cfg1.N
      = reluLin (M := 50000) (K := 128) (N := 64) (V c main_v45) (rowVec (V c main_v46)) (V c main_arg4) :=
  (dat1 V c).arrAt_eq_of_cover 3 _ (fun t _ => flushed_eq V c t) cover

end Cert.KernelIdeal.Stage1

end
-- ==== Proof.Stage2.lean ====
/-
  The third dense stage, read off its pipeline: the array the third region leaves, which is the program's result.

  The region tiles the 50000 rows of the aggregated activation into 25 blocks of 2000 rows; at grid point t the body loads
  block t, the one-row bias, the whole weight matrix and the one-row output bias, adds the bias to every row, takes the
  matrix product with the weights, adds the output bias and applies the logistic function, and stores that as block t of
  the output. Entry (p, q) of the block is logistic((sum over k of (a(2000·t + p, k) + b(0, k)) · w(k, q)) + bl(0, q)):
  entry (2000·t + p, q) of the stage applied to the whole arrays. The blocks tile the output.
-/
import proofs.«176238_j1984274891245_1_alg».proof.Proof.Gen.KernelIdeal.Frame
import proofs.«176238_j1984274891245_1_alg».proof.Proof.Spec
import proofs.«176238_j1984274891245_1_alg».proof.Proof.LibMatmulNN
import Idealize.ShloMosaic.Lib.Pipeline.Value
import Idealize.ShloMosaic.Lib.ValueLayout

set_option maxRecDepth 16384

noncomputable section

open scoped BigOperators

namespace Cert.KernelIdeal.Stage2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value at an entry. -/
theorem pay_apply (x0 : Vec Ideal S2000x64 .f32) (x1 : Vec Ideal S1x64 .f32) (x2 : Vec Ideal S64x16 .f32) (x3 : Vec Ideal S1x16 .f32)
    (p : Fin 2000) (q : Fin 16) :
    k2_pay1 x0 x1 x2 x3 (ix2 p q)
      = sigm ((∑ k : Fin 64, (x0 (ix2 p k) + x1 (ix2 (0 : Fin 1) k)) * x2 (ix2 k q)) + x3 (ix2 (0 : Fin 1) q)) := by
  unfold k2_pay1
  refine (logistic_eq_sigm _).trans ?_
  refine congrArg sigm ?_
  refine congrArg₂ (· + ·) ?_ ?_
  · refine (LibMatmulNN.matmul_zero_apply' dot_S2000x64_S64x16_S2000x16_1_0_0_1_n_n rfl rfl rfl rfl rfl rfl none _ _ p q).trans ?_
    refine Finset.sum_congr rfl fun k _ => ?_
    refine congrArg (· * x2 (ix2 k q)) ?_
    show shapeCast S2000x64 x0 _ (ix2 p k) + broadcastTo S2000x64 (shapeCast S1x64 x1 _) _ (ix2 p k) = _
    rw [shapeCast_self, shapeCast_self, broadcastTo_1b_ab_apply]
  · show broadcastTo S2000x16 (shapeCast S1x16 x3 _) _ (ix2 p q) = _
    rw [shapeCast_self, broadcastTo_1b_ab_apply]

/-- The index maps over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the stage of the arrays the region finds. -/
theorem flushed_eq (c : Dev nD) (t : Fin cfg2.N) :
    (dat2 V c).flushed 4 t = ((cfg2.win 4).blk t).view.read (Elt Ideal)
      (sigLin (M := 50000) (K := 64) (N := 16) (V c main_v60) (rowVec (V c main_v61)) (V c main_arg6) (rowVec (V c main_v62))) := by
  show (cfg2.win 4).cut (grid2.coords t) ((dat2 V c).after 4 t) = _
  rw [after2_4]
  unfold out2_4
  rw [View.canon_unit_zero offsets_zero]
  simp only [View.ld_unit_zero (S := S2000x64) offsets_zero, View.ld_unit_zero (S := S1x64) offsets_zero, View.ld_unit_zero (S := S64x16) offsets_zero, View.ld_unit_zero (S := S1x16) offsets_zero]
  obtain ⟨e0, e1, e2, e3, e4, e5, e6, e7, e8, e9⟩ := idx_facts t
  funext j
  obtain ⟨p, q, rfl⟩ : ∃ (p : Fin 2000) (q : Fin 16), j = ix2 p q := ⟨j 0, j 1, eq_ix2 j⟩
  show k2_pay1 (iblk2 V c 0 t) (iblk2 V c 1 t) (iblk2 V c 2 t) (iblk2 V c 3 t) (ix2 p q)
    = sigLin (M := 50000) (K := 64) (N := 16) (V c main_v60) (rowVec (V c main_v61)) (V c main_arg6) (rowVec (V c main_v62)) (((cfg2.win 4).blk t).view.emb (ix2 p q))
  refine (pay_apply _ _ _ _ p q).trans ?_
  refine congrArg sigm ?_
  have hl : ((cfg2.win 3).blk t).view.emb (ix2 (0 : Fin 1) q)
      = ix2 (n0 := 1) (n1 := 16) (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 16 + 1 * q.val = win2_4.index t (1 : Fin 2) * 16 + 1 * q.val; omega
  refine congrArg₂ (· + ·) (Finset.sum_congr rfl fun k _ => ?_) ?_
  · have h0 : ((cfg2.win 0).blk t).view.emb (ix2 p k)
        = ix2 (n0 := 50000) (n1 := 64) ((((cfg2.win 4).blk t).view.emb (ix2 p q)) 0) k := by
      funext a; apply Fin.ext
      match a with
      | ⟨0, _⟩ => show win2_0.index t (0 : Fin 2) * 2000 + 1 * p.val = win2_4.index t (0 : Fin 2) * 2000 + 1 * p.val; omega
      | ⟨1, _⟩ => show win2_0.index t (1 : Fin 2) * 64 + 1 * k.val = k.val; omega
    have hb : ((cfg2.win 1).blk t).view.emb (ix2 (0 : Fin 1) k) = ix2 (n0 := 1) (n1 := 64) (0 : Fin 1) k := by
      funext a; apply Fin.ext
      match a with
      | ⟨0, _⟩ => show win2_1.index t (0 : Fin 2) * 1 + 1 * 0 = 0; omega
      | ⟨1, _⟩ => show win2_1.index t (1 : Fin 2) * 64 + 1 * k.val = k.val; omega
    have h2 : ((cfg2.win 2).blk t).view.emb (ix2 k q)
        = ix2 (n0 := 64) (n1 := 16) k ((((cfg2.win 4).blk t).view.emb (ix2 p q)) 1) := by
      funext a; apply Fin.ext
      match a with
      | ⟨0, _⟩ => show win2_2.index t (0 : Fin 2) * 64 + 1 * k.val = k.val; omega
      | ⟨1, _⟩ => show win2_2.index t (1 : Fin 2) * 16 + 1 * q.val = win2_4.index t (1 : Fin 2) * 16 + 1 * q.val; omega
    have hA : iblk2 V c 0 t (ix2 p k)
        = V c main_v60 (ix2 (n0 := 50000) (n1 := 64) ((((cfg2.win 4).blk t).view.emb (ix2 p q)) 0) k) :=
      congrArg (V c main_v60) h0
    have hB : iblk2 V c 1 t (ix2 (0 : Fin 1) k) = V c main_v61 (ix2 (n0 := 1) (n1 := 64) (0 : Fin 1) k) :=
      congrArg (V c main_v61) hb
    have hC : iblk2 V c 2 t (ix2 k q)
        = V c main_arg6 (ix2 (n0 := 64) (n1 := 16) k ((((cfg2.win 4).blk t).view.emb (ix2 p q)) 1)) :=
      congrArg (V c main_arg6) h2
    exact congrArg₂ (fun a b : EReal => a * b) (congrArg₂ (fun a b : EReal => a + b) hA hB) hC
  · exact congrArg (V c main_v62) hl

/-- An index of the output array is in point t's block iff each coordinate is in the block's range on its axis. -/
theorem mem_blk (t : Fin cfg2.N) (i : S50000x16.Idx) :
    i ∈ ((cfg2.win 4).blk t).view.set ↔ ∀ a : Fin 2, win2_4.index t a * S2000x16.size a ≤ (i a).val ∧ (i a).val < win2_4.index t a * S2000x16.size a + S2000x16.size a := by
  show i ∈ ((View.whole main_v63).slice (win2_4.rect t)).set ↔ _
  rw [View.set_slice_whole, Rect.mem_set_unit]
  exact Iff.rfl

/-- Every block row is some point's. -/
theorem idx_onto : ∀ q0 : Fin 25, ∃ t : Fin cfg2.N, win2_4.index t = ![q0.val, 0] :=
  (by decide +kernel : ∀ q0 : Fin 25, ∃ t : Fin grid2.N, win2_4.index t = ![q0.val, 0])

/-- Row r of the output lies in the block of point r / 2000. -/
theorem cover (i : S50000x16.Idx) : ∃ t : Fin cfg2.N, (cfg2.win 4).flush t = true ∧ i ∈ ((cfg2.win 4).blk t).view.set := by
  have hi0 : (i 0).val < 50000 := (i 0).isLt
  have hi1 : (i 1).val < 16 := (i 1).isLt
  obtain ⟨t, ht⟩ := idx_onto ⟨(i 0).val / 2000, by omega⟩
  have q0 : win2_4.index t (0 : Fin 2) = (i 0).val / 2000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 16 ≤ (i 1).val ∧ (i 1).val < win2_4.index t (1 : Fin 2) * 16 + 16; omega

/-- The output array after the region: the stage of the arrays the region was entered with. -/
theorem final (c : Dev nD) :
    (dat2 V c).arrAt 4 cfg2.N
      = sigLin (M := 50000) (K := 64) (N := 16) (V c main_v60) (rowVec (V c main_v61)) (V c main_arg6) (rowVec (V c main_v62)) :=
  (dat2 V c).arrAt_eq_of_cover 4 _ (fun t _ => flushed_eq V c t) cover

end Cert.KernelIdeal.Stage2

end
-- ==== Proof.HostChain.lean ====
/-
  The host-side operations of the graph convolution that surround the dense stages, each as ONE function of whole arrays.

  From the edge list `e` (two rows of node numbers) the program forms the source and destination lists with one
  self loop per node appended (`srcOf`, `dstOf`), the in-degree of every node as a scatter-add of ones (`degOf`), its
  inverse square root where the degree is positive and zero elsewhere (`dinvOf`), and the edge weight
  `dinv[src] · dinv[dst]` (`normOf`). An aggregation step gathers the rows of `h` at the sources, scales each
  by its edge weight and scatter-adds them at the destinations (`agg128`, `agg64` for the two row widths).
  A negative node number is wrapped once by the node count before a gather (`wrapIdx`), as the array indexing does.
  These are the operations exactly as both programs apply them; nothing here opens them.
-/
import proofs.«176238_j1984274891245_1_alg».proof.KernelIdeal

noncomputable section

namespace Cert.KernelIdeal.HostChain

open Cert.KernelIdeal Idealize.ShloMosaic Idealize.ShloMosaic.TcCoe

variable {F : FTy → Type} [FloatOps F] [Facts₀]
open Facts₀

/-- The source node of every edge, the self loops last. -/
def srcOf (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destination node of every edge, the self loops last. -/
def dstOf (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A list of node numbers as gather start indices, a negative number wrapped by the node count. -/
def wrapIdx (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The in-degree of every node: ones scatter-added at the destinations. -/
def degOf (e : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dstOf e))
    (broadcastInDim S850000 ![] bcast_S_S850000 (constant S_ .f32 0x3F800000#32))

/-- The inverse square root of the degree where it is positive, zero elsewhere. -/
def dinvOf (e : (⟨S2x800000, .i32⟩ : BufTy).Contents (Elt F)) : (⟨S50000, .f32⟩ : BufTy).Contents (Elt F) :=
  select (cmpf .ogt (degOf e) (broadcastInDim S50000 ![] bcast_S_S50000 (constant S_ .f32 0x00000000#32)))
    (Host.rsqrt (maximumf (degOf e) (broadcastInDim S50000 ![] bcast_S_S50000 (constant S_ .f32 0x3F800000#32))))
    (broadcastInDim S50000 ![] bcast_S_S50000 (id (constant S_ .f32 0x00000000#32)))

/-- The weight of every edge. -/
def normOf (e : (⟨S2x800000, .i32⟩ : BufTy).Contents (Elt F)) : (⟨S850000, .f32⟩ : BufTy).Contents (Elt F) :=
  mulf (Host.gather gather_S50000_S850000x1_S850000_n_0_n_n_0_1_1 (dinvOf e) (wrapIdx (srcOf e)))
    (Host.gather gather_S50000_S850000x1_S850000_n_0_n_n_0_1_1 (dinvOf e) (wrapIdx (dstOf e)))

/-- One aggregation step on rows of width 128. -/
def agg128 (h : (⟨S50000x128, .f32⟩ : BufTy).Contents (Elt F)) (s d : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (wrapIdx s))
      (broadcastInDim S850000x128 ![0, 1] bcast_S850000x1_S850000x128_0_1 (broadcastInDim S850000x1 ![0] bcast_S850000_S850000x1_0 nrm)))

/-- One aggregation step on rows of width 64. -/
def agg64 (h : (⟨S50000x64, .f32⟩ : BufTy).Contents (Elt F)) (s d : (⟨S850000, .i32⟩ : BufTy).Contents (Elt F))
    (nrm : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (wrapIdx s))
      (broadcastInDim S850000x64 ![0, 1] bcast_S850000x1_S850000x64_0_1 (broadcastInDim S850000x1 ![0] bcast_S850000_S850000x1_0 nrm)))

end Cert.KernelIdeal.HostChain

end
-- ==== Proof.KChain.lean ====
/-
  The idealized kernel program's result array as one function of the argument arrays.

  The buffer contents at the boundaries between @main's segments are followed from the launch to the return.
  Before the first region the host forms the source and destination lists and the edge weights from the edge list;
  those buffers, and the argument arrays, are written by nothing afterwards, so they hold the same values at every later
  boundary. The first region leaves the product of the features with the first weight matrix; the host aggregates it
  along the edges; the second region leaves the rectified, biased aggregate times the second weight matrix; the host
  aggregates again; the third region leaves the logistic of the biased aggregate times the head's weights plus its bias.
  A bias enters a region as the argument vector cast to one row.
-/
import proofs.«176238_j1984274891245_1_alg».proof.Proof.Stage0
import proofs.«176238_j1984274891245_1_alg».proof.Proof.Stage1
import proofs.«176238_j1984274891245_1_alg».proof.Proof.Stage2
import proofs.«176238_j1984274891245_1_alg».proof.Proof.HostChain
import Idealize.ShloMosaic.Lib.StableHlo.Run

set_option maxRecDepth 16384

noncomputable section

namespace Cert.KernelIdeal.Chain

open Cert.KernelIdeal Cert.KernelIdeal.Gen Cert.KernelIdeal.HostChain Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first region: the lists, the weights and the arguments -/

theorem at3_v3 : W3 m ρ c (Proc.devRef .tc main_v3) = srcOf (m ((c : Thread nD τ).loc main_arg1)) := by
  dsimp only [W3, W2, W1, hostOps0, hostOps0_1, hostOps0_2]
  after_results_simp <;> rfl
theorem at3_v6 : W3 m ρ c (Proc.devRef .tc main_v6) = dstOf (m ((c : Thread nD τ).loc main_arg1)) := by
  dsimp only [W3, W2, W1, hostOps0, hostOps0_1, hostOps0_2]
  after_results_simp <;> rfl
/-! The edge weights, one stretch of host operations at a time: the degree test and the inverse square root after the
    first stretch, their selection after the second, the two gathers and their product after the third. -/

theorem at1_v3 : W1 m ρ c (Proc.devRef .tc main_v3) = srcOf (m ((c : Thread nD τ).loc main_arg1)) := by
  dsimp only [W1, hostOps0]
  after_results_simp <;> rfl
theorem at1_v6 : W1 m ρ c (Proc.devRef .tc main_v6) = dstOf (m ((c : Thread nD τ).loc main_arg1)) := by
  dsimp only [W1, hostOps0]
  after_results_simp <;> rfl
theorem at1_v12 : W1 m ρ c (Proc.devRef .tc main_v12)
    = cmpf (F := Ideal) .ogt (degOf (m ((c : Thread nD τ).loc main_arg1))) (broadcastInDim S50000 ![] bcast_S_S50000 (constant S_ .f32 0x00000000#32)) := by
  dsimp only [W1, hostOps0]
  after_results_simp <;> rfl
theorem at1_v15 : W1 m ρ c (Proc.devRef .tc main_v15)
    = Host.rsqrt (F := Ideal) (maximumf (degOf (m ((c : Thread nD τ).loc main_arg1))) (broadcastInDim S50000 ![] bcast_S_S50000 (constant S_ .f32 0x3F800000#32))) := by
  dsimp only [W1, hostOps0]
  after_results_simp <;> rfl
theorem at1_cst_3 : W1 m ρ c (Proc.devRef .tc main_cst_3) = constant (F := Ideal) S_ .f32 0x00000000#32 := by
  dsimp only [W1, hostOps0]
  after_results_simp <;> rfl
/-- The second stretch (the selection) over any contents: it writes the selected inverse square roots and keeps the lists. -/
theorem stretch2_v16 (Vv : Valuation τ sig (Elt Ideal)) : StableHlo.after hostOps0_1 Vv (Proc.devRef .tc main_v16)
    = select (Vv (Proc.devRef .tc main_v12)) (Vv (Proc.devRef .tc main_v15))
        (broadcastInDim S50000 ![] bcast_S_S50000 (id (Vv (Proc.devRef .tc main_cst_3)))) := by
  dsimp only [hostOps0_1]
  after_results_simp <;> rfl
theorem stretch2_v3 (Vv : Valuation τ sig (Elt Ideal)) :
    StableHlo.after hostOps0_1 Vv (Proc.devRef .tc main_v3) = Vv (Proc.devRef .tc main_v3) := by
  dsimp only [hostOps0_1]
  after_results_simp <;> rfl
theorem stretch2_v6 (Vv : Valuation τ sig (Elt Ideal)) :
    StableHlo.after hostOps0_1 Vv (Proc.devRef .tc main_v6) = Vv (Proc.devRef .tc main_v6) := by
  dsimp only [hostOps0_1]
  after_results_simp <;> rfl
/-- The third stretch over any contents: the two gathers of the inverse square roots and their product. -/
theorem stretch3_v31 (Vv : Valuation τ sig (Elt Ideal)) : StableHlo.after hostOps0_2 Vv (Proc.devRef .tc main_v31)
    = mulf (F := Ideal) (φ := .f32) (Host.gather gather_S50000_S850000x1_S850000_n_0_n_n_0_1_1 (Vv (Proc.devRef .tc main_v16)) (wrapIdx (Vv (Proc.devRef .tc main_v3))))
        (Host.gather gather_S50000_S850000x1_S850000_n_0_n_n_0_1_1 (Vv (Proc.devRef .tc main_v16)) (wrapIdx (Vv (Proc.devRef .tc main_v6)))) := by
  dsimp only [hostOps0_2]
  after_results_simp <;> rfl
theorem at2_v3 : W2 m ρ c (Proc.devRef .tc main_v3) = srcOf (m ((c : Thread nD τ).loc main_arg1)) :=
  (stretch2_v3 (W1 m ρ c)).trans (at1_v3 m ρ c)
theorem at2_v6 : W2 m ρ c (Proc.devRef .tc main_v6) = dstOf (m ((c : Thread nD τ).loc main_arg1)) :=
  (stretch2_v6 (W1 m ρ c)).trans (at1_v6 m ρ c)
theorem at2_v16 : W2 m ρ c (Proc.devRef .tc main_v16) = dinvOf (m ((c : Thread nD τ).loc main_arg1)) :=
  (stretch2_v16 (W1 m ρ c)).trans (by rw [at1_v12, at1_v15, at1_cst_3]; rfl)
theorem at3_v31 : W3 m ρ c (Proc.devRef .tc main_v31) = normOf (m ((c : Thread nD τ).loc main_arg1)) :=
  (stretch3_v31 (W2 m ρ c)).trans (by rw [at2_v16, at2_v3, at2_v6]; rfl)
theorem at3_arg0 : W3 m ρ c (Proc.devRef .tc main_arg0) = (m ((c : Thread nD τ).loc main_arg0)) := by
  dsimp only [W3, W2, W1, hostOps0, hostOps0_1, hostOps0_2]
  after_results_simp <;> rfl
theorem at3_arg2 : W3 m ρ c (Proc.devRef .tc main_arg2) = (m ((c : Thread nD τ).loc main_arg2)) := by
  dsimp only [W3, W2, W1, hostOps0, hostOps0_1, hostOps0_2]
  after_results_simp <;> rfl
theorem at3_arg3 : W3 m ρ c (Proc.devRef .tc main_arg3) = (m ((c : Thread nD τ).loc main_arg3)) := by
  dsimp only [W3, W2, W1, hostOps0, hostOps0_1, hostOps0_2]
  after_results_simp <;> rfl
theorem at3_arg4 : W3 m ρ c (Proc.devRef .tc main_arg4) = (m ((c : Thread nD τ).loc main_arg4)) := by
  dsimp only [W3, W2, W1, hostOps0, hostOps0_1, hostOps0_2]
  after_results_simp <;> rfl
theorem at3_arg5 : W3 m ρ c (Proc.devRef .tc main_arg5) = (m ((c : Thread nD τ).loc main_arg5)) := by
  dsimp only [W3, W2, W1, hostOps0, hostOps0_1, hostOps0_2]
  after_results_simp <;> rfl
theorem at3_arg6 : W3 m ρ c (Proc.devRef .tc main_arg6) = (m ((c : Thread nD τ).loc main_arg6)) := by
  dsimp only [W3, W2, W1, hostOps0, hostOps0_1, hostOps0_2]
  after_results_simp <;> rfl
theorem at3_arg7 : W3 m ρ c (Proc.devRef .tc main_arg7) = (m ((c : Thread nD τ).loc main_arg7)) := by
  dsimp only [W3, W2, W1, hostOps0, hostOps0_1, hostOps0_2]
  after_results_simp <;> rfl

/-! ## Across the first region -/

theorem at4_v3 : W4 m ρ c (Proc.devRef .tc main_v3) = srcOf (m ((c : Thread nD τ).loc main_arg1)) :=
  (W4_of_ne m ρ c main_v3 (by decide)).trans (at3_v3 m ρ c)
theorem at4_v6 : W4 m ρ c (Proc.devRef .tc main_v6) = dstOf (m ((c : Thread nD τ).loc main_arg1)) :=
  (W4_of_ne m ρ c main_v6 (by decide)).trans (at3_v6 m ρ c)
theorem at4_v31 : W4 m ρ c (Proc.devRef .tc main_v31) = normOf (m ((c : Thread nD τ).loc main_arg1)) :=
  (W4_of_ne m ρ c main_v31 (by decide)).trans (at3_v31 m ρ c)
theorem at4_arg3 : W4 m ρ c (Proc.devRef .tc main_arg3) = (m ((c : Thread nD τ).loc main_arg3)) :=
  (W4_of_ne m ρ c main_arg3 (by decide)).trans (at3_arg3 m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-- The first region's output: the features times the first weight matrix. -/
theorem at4_v32 : W4 m ρ c (Proc.devRef .tc main_v32)
    = lin (M := 50000) (K := 768) (N := 128) (m ((c : Thread nD τ).loc main_arg0)) (m ((c : Thread nD τ).loc main_arg2)) :=
  ((W4_arr m ρ c 2).trans (Stage0.final (V3 m ρ) c)).trans
    (congrArg₂ (lin (M := 50000) (K := 768) (N := 128)) (at3_arg0 m ρ c) (at3_arg2 m ρ c))

/-! ## The host operations between the first and the second region -/

theorem at5_v3 : W5 m ρ c (Proc.devRef .tc main_v3) = srcOf (m ((c : Thread nD τ).loc main_arg1)) :=
  (show W5 m ρ c (Proc.devRef .tc main_v3) = W4 m ρ c (Proc.devRef .tc main_v3) from by
    dsimp only [W5, hostOps1]
    after_results_simp <;> rfl).trans (at4_v3 m ρ c)
theorem at5_v6 : W5 m ρ c (Proc.devRef .tc main_v6) = dstOf (m ((c : Thread nD τ).loc main_arg1)) :=
  (show W5 m ρ c (Proc.devRef .tc main_v6) = W4 m ρ c (Proc.devRef .tc main_v6) from by
    dsimp only [W5, hostOps1]
    after_results_simp <;> rfl).trans (at4_v6 m ρ c)
theorem at5_v31 : W5 m ρ c (Proc.devRef .tc main_v31) = normOf (m ((c : Thread nD τ).loc main_arg1)) :=
  (show W5 m ρ c (Proc.devRef .tc main_v31) = W4 m ρ c (Proc.devRef .tc main_v31) from by
    dsimp only [W5, hostOps1]
    after_results_simp <;> rfl).trans (at4_v31 m ρ c)
theorem at5_arg4 : W5 m ρ c (Proc.devRef .tc main_arg4) = (m ((c : Thread nD τ).loc main_arg4)) :=
  (show W5 m ρ c (Proc.devRef .tc main_arg4) = W4 m ρ c (Proc.devRef .tc main_arg4) from by
    dsimp only [W5, hostOps1]
    after_results_simp <;> rfl).trans (at4_arg4 m ρ c)
theorem at5_arg5 : W5 m ρ c (Proc.devRef .tc main_arg5) = (m ((c : Thread nD τ).loc main_arg5)) :=
  (show W5 m ρ c (Proc.devRef .tc main_arg5) = W4 m ρ c (Proc.devRef .tc main_arg5) from by
    dsimp only [W5, hostOps1]
    after_results_simp <;> rfl).trans (at4_arg5 m ρ c)
theorem at5_arg6 : W5 m ρ c (Proc.devRef .tc main_arg6) = (m ((c : Thread nD τ).loc main_arg6)) :=
  (show W5 m ρ c (Proc.devRef .tc main_arg6) = W4 m ρ c (Proc.devRef .tc main_arg6) from by
    dsimp only [W5, hostOps1]
    after_results_simp <;> rfl).trans (at4_arg6 m ρ c)
theorem at5_arg7 : W5 m ρ c (Proc.devRef .tc main_arg7) = (m ((c : Thread nD τ).loc main_arg7)) :=
  (show W5 m ρ c (Proc.devRef .tc main_arg7) = W4 m ρ c (Proc.devRef .tc main_arg7) from by
    dsimp only [W5, hostOps1]
    after_results_simp <;> rfl).trans (at4_arg7 m ρ c)

/-- The aggregated first layer. -/
theorem at5_v45 : W5 m ρ c (Proc.devRef .tc main_v45) = (agg128 (lin (M := 50000) (K := 768) (N := 128) (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) :=
  (show W5 m ρ c (Proc.devRef .tc main_v45)
      = agg128 (W4 m ρ c (Proc.devRef .tc main_v32)) (W4 m ρ c (Proc.devRef .tc main_v3)) (W4 m ρ c (Proc.devRef .tc main_v6)) (W4 m ρ c (Proc.devRef .tc main_v31)) from by
    dsimp only [W5, hostOps1]
    after_results_simp <;> rfl).trans (by rw [at4_v32, at4_v3, at4_v6, at4_v31])

/-- The first bias as one row. -/
theorem at5_v46 : W5 m ρ c (Proc.devRef .tc main_v46) = shapeCast S1x128 (m ((c : Thread nD τ).loc main_arg3)) shapeCasts_S128_S1x128 :=
  (show W5 m ρ c (Proc.devRef .tc main_v46) = shapeCast S1x128 (W4 m ρ c (Proc.devRef .tc main_arg3)) shapeCasts_S128_S1x128 from by
    dsimp only [W5, hostOps1]
    after_results_simp <;> rfl).trans (by rw [at4_arg3])

/-! ## Across the second region -/

theorem at6_v3 : W6 m ρ c (Proc.devRef .tc main_v3) = srcOf (m ((c : Thread nD τ).loc main_arg1)) :=
  (W6_of_ne m ρ c main_v3 (by decide)).trans (at5_v3 m ρ c)
theorem at6_v6 : W6 m ρ c (Proc.devRef .tc main_v6) = dstOf (m ((c : Thread nD τ).loc main_arg1)) :=
  (W6_of_ne m ρ c main_v6 (by decide)).trans (at5_v6 m ρ c)
theorem at6_v31 : W6 m ρ c (Proc.devRef .tc main_v31) = normOf (m ((c : Thread nD τ).loc main_arg1)) :=
  (W6_of_ne m ρ c main_v31 (by decide)).trans (at5_v31 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)

/-- The second region's output. -/
theorem at6_v47 : W6 m ρ c (Proc.devRef .tc main_v47) = (reluLin (M := 50000) (K := 128) (N := 64) (agg128 (lin (M := 50000) (K := 768) (N := 128) (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3)) (m ((c : Thread nD τ).loc main_arg4))) :=
  ((W6_arr m ρ c 3).trans (Stage1.final (V5 m ρ) c)).trans (by
    show reluLin (M := 50000) (K := 128) (N := 64) (W5 m ρ c (Proc.devRef .tc main_v45)) (rowVec (W5 m ρ c (Proc.devRef .tc main_v46))) (W5 m ρ c (Proc.devRef .tc main_arg4)) = _
    rw [at5_v45, at5_v46, at5_arg4, rowVec_shapeCast])

/-! ## The host operations between the second and the third region -/

theorem at7_arg6 : W7 m ρ c (Proc.devRef .tc main_arg6) = (m ((c : Thread nD τ).loc main_arg6)) :=
  (show W7 m ρ c (Proc.devRef .tc main_arg6) = W6 m ρ c (Proc.devRef .tc main_arg6) from by
    dsimp only [W7, hostOps2]
    after_results_simp <;> rfl).trans (at6_arg6 m ρ c)

/-- The aggregated second layer. -/
theorem at7_v60 : W7 m ρ c (Proc.devRef .tc main_v60) = (agg64 (reluLin (M := 50000) (K := 128) (N := 64) (agg128 (lin (M := 50000) (K := 768) (N := 128) (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3)) (m ((c : Thread nD τ).loc main_arg4))) (srcOf (m ((c : Thread nD τ).loc main_arg1))) (dstOf (m ((c : Thread nD τ).loc main_arg1))) (normOf (m ((c : Thread nD τ).loc main_arg1)))) :=
  (show W7 m ρ c (Proc.devRef .tc main_v60)
      = agg64 (W6 m ρ c (Proc.devRef .tc main_v47)) (W6 m ρ c (Proc.devRef .tc main_v3)) (W6 m ρ c (Proc.devRef .tc main_v6)) (W6 m ρ c (Proc.devRef .tc main_v31)) from by
    dsimp only [W7, hostOps2]
    after_results_simp <;> rfl).trans (by rw [at6_v47, at6_v3, at6_v6, at6_v31])

/-- The second bias as one row. -/
theorem at7_v61 : W7 m ρ c (Proc.devRef .tc main_v61) = shapeCast S1x64 (m ((c : Thread nD τ).loc main_arg5)) shapeCasts_S64_S1x64 :=
  (show W7 m ρ c (Proc.devRef .tc main_v61) = shapeCast S1x64 (W6 m ρ c (Proc.devRef .tc main_arg5)) shapeCasts_S64_S1x64 from by
    dsimp only [W7, hostOps2]
    after_results_simp <;> rfl).trans (by rw [at6_arg5])

/-- The head's bias as one row. -/
theorem at7_v62 : W7 m ρ c (Proc.devRef .tc main_v62) = shapeCast S1x16 (m ((c : Thread nD τ).loc main_arg7)) shapeCasts_S16_S1x16 :=
  (show W7 m ρ c (Proc.devRef .tc main_v62) = shapeCast S1x16 (W6 m ρ c (Proc.devRef .tc main_arg7)) shapeCasts_S16_S1x16 from by
    dsimp only [W7, hostOps2]
    after_results_simp <;> rfl).trans (by rw [at6_arg7])

/-! ## Across the third region: the result -/

/-- The result array at the last boundary, as one function of the argument arrays. -/
theorem result_eq : W8 m ρ c (Proc.devRef .tc main_v63) = (sigLin (M := 50000) (K := 64) (N := 16) (agg64 (reluLin (M := 50000) (K := 128) (N := 64) (agg128 (lin (M := 50000) (K := 768) (N := 128) (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3)) (m ((c : Thread nD τ).loc main_arg4))) (srcOf (m ((c : Thread nD τ).loc main_arg1))) (dstOf (m ((c : Thread nD τ).loc main_arg1))) (normOf (m ((c : Thread nD τ).loc main_arg1)))) (m ((c : Thread nD τ).loc main_arg5)) (m ((c : Thread nD τ).loc main_arg6)) (m ((c : Thread nD τ).loc main_arg7))) :=
  ((W8_arr m ρ c 4).trans (Stage2.final (V7 m ρ) c)).trans (by
    show sigLin (M := 50000) (K := 64) (N := 16) (W7 m ρ c (Proc.devRef .tc main_v60)) (rowVec (W7 m ρ c (Proc.devRef .tc main_v61))) (W7 m ρ c (Proc.devRef .tc main_arg6)) (rowVec (W7 m ρ c (Proc.devRef .tc main_v62))) = _
    rw [at7_v60, at7_v61, at7_arg6, at7_v62, rowVec_shapeCast, rowVec_shapeCast])

/-- The network's output as a function of the launch memory's argument arrays. -/
def value : Buf (Elt Ideal) ((c : Thread nD τ).loc main_v63) :=
  (sigLin (M := 50000) (K := 64) (N := 16) (agg64 (reluLin (M := 50000) (K := 128) (N := 64) (agg128 (lin (M := 50000) (K := 768) (N := 128) (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3)) (m ((c : Thread nD τ).loc main_arg4))) (srcOf (m ((c : Thread nD τ).loc main_arg1))) (dstOf (m ((c : Thread nD τ).loc main_arg1))) (normOf (m ((c : Thread nD τ).loc main_arg1)))) (m ((c : Thread nD τ).loc main_arg5)) (m ((c : Thread nD τ).loc main_arg6)) (m ((c : Thread nD τ).loc main_arg7)))

theorem result_value : W8 m ρ c (Proc.devRef .tc main_v63) = value m c := result_eq m ρ c

end Cert.KernelIdeal.Chain

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«176238_j1984274891245_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.RefValue.lean ====
/-
  The idealized reference's result as the same function of the argument arrays as the kernel program's.

  The reference applies, on the host, the same edge-list operations and the same two aggregation steps as the kernel
  program, and between them the three dense stages as whole-array operations: a matrix product; a bias broadcast over the
  rows, a maximum with zero and a matrix product; a bias, a matrix product, the output bias and 1 / (1 + exp(−z)).
  Read at an entry, a host matrix product is the sum over the contracted axis, a bias broadcast over the rows reads the
  bias at the column, and the quotient is the logistic function, so each dense stage is the stage function of Spec.lean.
-/
import proofs.«176238_j1984274891245_1_alg».proof.Proof.RefRun
import proofs.«176238_j1984274891245_1_alg».proof.Proof.Spec
import proofs.«176238_j1984274891245_1_alg».proof.Proof.LibDotGeneralNN
import proofs.«176238_j1984274891245_1_alg».proof.Proof.HostChain
import proofs.«176238_j1984274891245_1_alg».proof.Proof.Gen.KernelIdeal
import Idealize.ShloMosaic.Lib.Pipeline.Value

set_option maxRecDepth 16384

noncomputable section

open scoped BigOperators

namespace Cert.ReferenceIdeal.RefValue

open Cert.ReferenceIdeal Cert.ReferenceIdeal.Gen Cert.Gcn
open Idealize.ShloMosaic Idealize.ShloMosaic.TcCoe Idealize.ShloMosaic.ValueIdx Idealize.SL.Sem
open Cert.KernelIdeal.HostChain (srcOf dstOf wrapIdx degOf dinvOf normOf agg128 agg64)

/-! ## The dense stages as the host applies them -/

/-- The first stage: one matrix product. -/
def dense1 (x : FVec Ideal S50000x768 .f32) (w : FVec Ideal S768x128 .f32) :
    FVec Ideal S50000x128 .f32 :=
  Host.dotGeneral (F := Ideal) dot_S50000x768_S768x128_S50000x128_1_0_0_1_n_n none x w

/-- The second stage: the bias over the rows, the maximum with zero, the matrix product. -/
def dense2 (a : FVec Ideal S50000x128 .f32) (b : FVec Ideal S128 .f32)
    (w : FVec Ideal S128x64 .f32) : FVec Ideal S50000x64 .f32 :=
  Host.dotGeneral (F := Ideal) dot_S50000x128_S128x64_S50000x64_1_0_0_1_n_n none
    (maximumf (addf a (broadcastInDim S50000x128 ![0, 1] bcast_S1x128_S50000x128_0_1 (broadcastInDim S1x128 ![1] bcast_S128_S1x128_1 b)))
      (broadcastInDim S50000x128 ![] bcast_S_S50000x128 (constant S_ .f32 0x00000000#32))) w

/-- The third stage: the bias, the matrix product, the output bias, then 1 / (1 + exp(−z)). -/
def dense3 (a : FVec Ideal S50000x64 .f32) (b : FVec Ideal S64 .f32)
    (w : FVec Ideal S64x16 .f32) (bl : FVec Ideal S16 .f32) :
    FVec Ideal S50000x16 .f32 :=
  Host.divf (F := Ideal) (broadcastInDim S50000x16 ![] bcast_S_S50000x16 (constant S_ .f32 0x3F800000#32))
    (addf (broadcastInDim S50000x16 ![] bcast_S_S50000x16 (constant S_ .f32 0x3F800000#32))
      (Host.exp (Host.negf (addf
        (Host.dotGeneral dot_S50000x64_S64x16_S50000x16_1_0_0_1_n_n none
          (addf a (broadcastInDim S50000x64 ![0, 1] bcast_S1x64_S50000x64_0_1 (broadcastInDim S1x64 ![1] bcast_S64_S1x64_1 b))) w)
        (broadcastInDim S50000x16 ![0, 1] bcast_S1x16_S50000x16_0_1 (broadcastInDim S1x16 ![1] bcast_S16_S1x16_1 bl))))))

/-! ## Each is its stage function -/

/-- A vector broadcast to one row and then over M rows reads, at (p, k), the vector at k. -/
theorem rows_apply {M K : Nat} (b : Vc K) (h1 : (⟨1, ![K]⟩ : Shape).BroadcastsInDim ⟨2, ![1, K]⟩ ![1])
    (h2 : (⟨2, ![1, K]⟩ : Shape).BroadcastsInDim ⟨2, ![M, K]⟩ ![0, 1]) (p : Fin M) (k : Fin K) :
    broadcastInDim ⟨2, ![M, K]⟩ ![0, 1] h2 (broadcastInDim ⟨2, ![1, K]⟩ ![1] h1 b) (ix2 p k) = b (ix1 k) := by
  refine (broadcastInDim_apply ![0, 1] h2 _ (ix2 p k) (ix2 (0 : Fin 1) k) fun ax => ?_).trans ?_
  · match ax with
    | ⟨0, _⟩ => rfl
    | ⟨1, _⟩ =>
      show k.val = if K = 1 then 0 else k.val
      split
      · have := k.isLt; omega
      · rfl
  · refine broadcastInDim_apply ![1] h1 b (ix2 (0 : Fin 1) k) (ix1 k) fun ax => ?_
    match ax with
    | ⟨0, _⟩ =>
      show k.val = if K = 1 then 0 else k.val
      split
      · have := k.isLt; omega
      · rfl

/-- A scalar constant broadcast over a shape reads its word at every index. -/
theorem splat_apply {s : Shape} (w : BitVec 32) (h : (⟨0, ![]⟩ : Shape).BroadcastsInDim s ![]) (i : s.Idx) :
    broadcastInDim s ![] h (constant (F := Ideal) ⟨0, ![]⟩ .f32 w) i = Ideal.ofBits .f32 w :=
  broadcastInDim_apply ![] h _ i ix0 fun ax => ax.elim0

theorem dense1_eq (x : FVec Ideal S50000x768 .f32) (w : FVec Ideal S768x128 .f32) :
    dense1 x w = lin (M := 50000) (K := 768) (N := 128) x w := by
  funext i
  obtain ⟨p, q, rfl⟩ : ∃ (p : Fin 50000) (q : Fin 128), i = ix2 p q := ⟨i 0, i 1, eq_ix2 i⟩
  unfold dense1 Host.dotGeneral
  exact LibDotGeneralNN.dotGeneral_apply _ rfl rfl rfl rfl rfl rfl _ _ _ _ p q

theorem dense2_eq (a : FVec Ideal S50000x128 .f32) (b : FVec Ideal S128 .f32)
    (w : FVec Ideal S128x64 .f32) :
    dense2 a b w = reluLin (M := 50000) (K := 128) (N := 64) a b w := by
  funext i
  obtain ⟨p, q, rfl⟩ : ∃ (p : Fin 50000) (q : Fin 64), i = ix2 p q := ⟨i 0, i 1, eq_ix2 i⟩
  unfold dense2 Host.dotGeneral
  refine (LibDotGeneralNN.dotGeneral_apply _ rfl rfl rfl rfl rfl rfl _ _ _ _ p q).trans ?_
  refine Finset.sum_congr rfl fun k _ => ?_
  refine congrArg (· * w (ix2 k q)) ?_
  refine congrArg₂ max (congrArg (a (ix2 p k) + ·) ?_) ?_
  · exact rows_apply (M := 50000) (K := 128) b _ _ p k
  · exact splat_apply _ _ _

/-- The host's quotient form of the logistic function, read at an index. -/
theorem sigm_host {s : Shape} (one z : FVec Ideal s .f32) (i : s.Idx) (h1 : one i = oneWord) :
    Host.divf one (addf one (Host.exp (Host.negf z))) i = sigm (z i) := by
  show Ideal.div (one i) (one i + Ideal.exp (-(z i))) = _
  rw [h1]; rfl

theorem dense3_eq (a : FVec Ideal S50000x64 .f32) (b : FVec Ideal S64 .f32)
    (w : FVec Ideal S64x16 .f32) (bl : FVec Ideal S16 .f32) :
    dense3 a b w bl = sigLin (M := 50000) (K := 64) (N := 16) a b w bl := by
  funext i
  obtain ⟨p, q, rfl⟩ : ∃ (p : Fin 50000) (q : Fin 16), i = ix2 p q := ⟨i 0, i 1, eq_ix2 i⟩
  unfold dense3
  refine (sigm_host _ _ (ix2 p q) (splat_apply _ _ _)).trans ?_
  refine congrArg sigm ?_
  refine congrArg₂ (· + ·) ?_ ?_
  · unfold Host.dotGeneral
    refine (LibDotGeneralNN.dotGeneral_apply _ rfl rfl rfl rfl rfl rfl _ _ _ _ p q).trans ?_
    refine Finset.sum_congr rfl fun k _ => ?_
    refine congrArg (· * w (ix2 k q)) ?_
    exact congrArg (a (ix2 p k) + ·) (rows_apply (M := 50000) (K := 64) b _ _ p k)
  · exact rows_apply (M := 50000) (K := 16) bl _ _ p q

/-! ## The reference run's term -/

variable (m : (ℓ : Loc nD τ sig) → Buf (Elt Ideal) ℓ) (c : Dev nD)

set_option maxHeartbeats 4000000 in
/-- The run's composed term, regrouped: the dense stages around the two aggregation steps, every edge-list operand
    the same function of the edge list. -/
theorem res_grouped : ValueP.res_main_v91 (F := Ideal) m c
    = dense3 (agg64 (dense2 (agg128 (dense1 (m ((c.tc : Thread nD τ).loc main_arg0)) (m ((c.tc : Thread nD τ).loc main_arg2))) (srcOf (m ((c.tc : Thread nD τ).loc main_arg1))) (dstOf (m ((c.tc : Thread nD τ).loc main_arg1))) (normOf (m ((c.tc : Thread nD τ).loc main_arg1)))) (m ((c.tc : Thread nD τ).loc main_arg3)) (m ((c.tc : Thread nD τ).loc main_arg4))) (srcOf (m ((c.tc : Thread nD τ).loc main_arg1))) (dstOf (m ((c.tc : Thread nD τ).loc main_arg1))) (normOf (m ((c.tc : Thread nD τ).loc main_arg1)))) (m ((c.tc : Thread nD τ).loc main_arg5)) (m ((c.tc : Thread nD τ).loc main_arg6)) (m ((c.tc : Thread nD τ).loc main_arg7)) := by
  unfold ValueP.res_main_v91 dense3 dense2 dense1 agg64 agg128 normOf dinvOf degOf wrapIdx srcOf dstOf
  rfl

/-- The reference's result array as one function of the argument arrays. -/
theorem res_value : ValueP.res_main_v91 (F := Ideal) m c = (sigLin (M := 50000) (K := 64) (N := 16) (agg64 (reluLin (M := 50000) (K := 128) (N := 64) (agg128 (lin (M := 50000) (K := 768) (N := 128) (m ((c.tc : Thread nD τ).loc main_arg0)) (m ((c.tc : Thread nD τ).loc main_arg2))) (srcOf (m ((c.tc : Thread nD τ).loc main_arg1))) (dstOf (m ((c.tc : Thread nD τ).loc main_arg1))) (normOf (m ((c.tc : Thread nD τ).loc main_arg1)))) (m ((c.tc : Thread nD τ).loc main_arg3)) (m ((c.tc : Thread nD τ).loc main_arg4))) (srcOf (m ((c.tc : Thread nD τ).loc main_arg1))) (dstOf (m ((c.tc : Thread nD τ).loc main_arg1))) (normOf (m ((c.tc : Thread nD τ).loc main_arg1)))) (m ((c.tc : Thread nD τ).loc main_arg5)) (m ((c.tc : Thread nD τ).loc main_arg6)) (m ((c.tc : Thread nD τ).loc main_arg7))) := by
  rw [res_grouped, dense1_eq, dense2_eq, dense3_eq]

end Cert.ReferenceIdeal.RefValue

end
-- ==== Proof.lean ====
/-
  A two-layer graph convolution with a linear head, as three fused dense kernels between host-side aggregations,
  against the same network written with whole-array operations on the host.

  With S, D the source and destination lists of the edges (one self loop per node appended) and n the edge weights
  dinv[S] · dinv[D] computed from the in-degrees, both programs compute, on the extended reals,

      logistic( (A(relu(A(x · W1) + b1) · W2) + b2) · Wl + bl ),      A(h)[d] = sum over edges e with D(e) = d of h[S(e)] · n(e),

  with the same operations in the same order: a change of float format is the identity there, a kernel's matrix
  product into a zero accumulator and the host's are the same sum over the contracted axis, the row tiling of the
  kernels is invisible in the whole arrays, and the kernel's logistic operation is the host's 1 / (1 + exp(−z)).
  The edge-list operations and the two aggregations are the same host operations in both programs and are carried as
  whole-array functions that are never opened. No law of arithmetic beyond these readings is needed, so the
  finiteness of the inputs is not used.

  The kernel program's frames are the generated ones; its run with the result array named is KRun.lean, the array's
  value KChain.lean over Stage0/1/2.lean; the reference's run is RefRun.lean and its value RefValue.lean.
-/
import proofs.«176238_j1984274891245_1_alg».proof.Defs
import proofs.«176238_j1984274891245_1_alg».proof.Proof.Gen.Kernel
import proofs.«176238_j1984274891245_1_alg».proof.Proof.Gen.Kernel.Skeleton
import proofs.«176238_j1984274891245_1_alg».proof.Proof.Gen.Kernel.Launch
import proofs.«176238_j1984274891245_1_alg».proof.Proof.Gen.Kernel.Points
import proofs.«176238_j1984274891245_1_alg».proof.Proof.Gen.Kernel.Frame
import proofs.«176238_j1984274891245_1_alg».proof.Proof.Gen.KernelIdeal
import proofs.«176238_j1984274891245_1_alg».proof.Proof.Gen.KernelIdeal.Skeleton
import proofs.«176238_j1984274891245_1_alg».proof.Proof.Gen.KernelIdeal.Launch
import proofs.«176238_j1984274891245_1_alg».proof.Proof.Gen.KernelIdeal.Points
import proofs.«176238_j1984274891245_1_alg».proof.Proof.Gen.KernelIdeal.Frame
import proofs.«176238_j1984274891245_1_alg».proof.Proof.Gen.ReferenceIdeal
import proofs.«176238_j1984274891245_1_alg».proof.Proof.Gen.Pre_finite_inputs
import proofs.«176238_j1984274891245_1_alg».proof.Proof.KRun
import proofs.«176238_j1984274891245_1_alg».proof.Proof.KChain
import proofs.«176238_j1984274891245_1_alg».proof.Proof.RefRun
import proofs.«176238_j1984274891245_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result array: each is the same
    function of the argument arrays. -/
theorem algebraic : Cert.algebraic_KernelIdeal_ReferenceIdeal := by
  intro m ρ m' ρ' _ hagree
  refine ⟨fun c => Cert.KernelIdeal.Chain.value m c, ?_, ?_⟩
  · exact (θ_run (Cert.KernelIdeal.defs (F := Ideal)) _ _).mono
      (fun r h c => ⟨(h c).1.trans (Cert.KernelIdeal.Chain.result_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_value m' c]
    obtain ⟨h0, h1, h2, h3, h4, h5, h6, h7⟩ := hagree c
    rw [h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
